-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4096 : Shape := ⟨2, ![65536, 4096]⟩
abbrev S4096x2 : Shape := ⟨2, ![4096, 2]⟩
abbrev S4096x1 : Shape := ⟨2, ![4096, 1]⟩
abbrev S65536x2 : Shape := ⟨2, ![65536, 2]⟩
abbrev S_ : Shape := ⟨0, ![]⟩

class Facts : Prop where
  bcast_S_S65536x4096 : S_.BroadcastsInDim S65536x4096 (![] : Fin 0 → Fin S65536x4096.rank)
  reducesTo_S65536x4096_S_d0_1 : S65536x4096.ReducesTo [0, 1] S_
  h_S_ : 0 < S_.numel
  bcast_S_S4096x2 : S_.BroadcastsInDim S4096x2 (![] : Fin 0 → Fin S4096x2.rank)
  reducesTo_S4096x2_S_d0_1 : S4096x2.ReducesTo [0, 1] S_
  bcast_S_S4096x1 : S_.BroadcastsInDim S4096x1 (![] : Fin 0 → Fin S4096x1.rank)
  reducesTo_S4096x1_S_d0_1 : S4096x1.ReducesTo [0, 1] S_
  bcast_S_S65536x2 : S_.BroadcastsInDim S65536x2 (![] : Fin 0 → Fin S65536x2.rank)
  reducesTo_S65536x2_S_d0_1 : S65536x2.ReducesTo [0, 1] S_

variable [Facts]

def fn_part1 {F : FTy → Type} [FloatOps F] (main_arg4 : FVec F S4096x2 .f32) (main_v13 : IVec S_ 1) (main_v16 : IVec S65536x2 1) : IVec S_ 1 :=
  let main_c_5 : IVec S_ 1 := constantI S_ 1 1#1
  let main_v17 : IVec S_ 1 := (fun x v => Host.reduce IntOp.andi x v reducesTo_S65536x2_S_d0_1 h_S_) main_v16 main_c_5
  let main_v18 : IVec S_ 1 := andi main_v13 main_v17
  let main_v19 : FVec F S4096x2 .f32 := Host.absf main_arg4
  let main_cst_6 : FVec F S_ .f32 := constant S_ .f32 0x7F800000#32
  let main_v20 : FVec F S4096x2 .f32 := broadcastInDim S4096x2 ![] bcast_S_S4096x2 main_cst_6
  let main_v21 : IVec S4096x2 1 := cmpf .olt main_v19 main_v20
  let main_c_7 : IVec S_ 1 := constantI S_ 1 1#1
  let main_v22 : IVec S_ 1 := (fun x v => Host.reduce IntOp.andi x v reducesTo_S4096x2_S_d0_1 h_S_) main_v21 main_c_7
  let main_v23 : IVec S_ 1 := andi main_v18 main_v22
  main_v23

def fn {F : FTy → Type} [FloatOps F] (main_arg0 : FVec F S65536x4096 .f32) (main_arg1 : FVec F S4096x2 .f32) (main_arg2 : FVec F S4096x1 .f32) (main_arg3 : FVec F S65536x2 .f32) (main_arg4 : FVec F S4096x2 .f32) : IVec S_ 1 :=
  let main_v0 : FVec F S65536x4096 .f32 := Host.absf main_arg0
  let main_cst : FVec F S_ .f32 := constant S_ .f32 0x7F800000#32
  let main_v1 : FVec F S65536x4096 .f32 := broadcastInDim S65536x4096 ![] bcast_S_S65536x4096 main_cst
  let main_v2 : IVec S65536x4096 1 := cmpf .olt main_v0 main_v1
  let main_c : IVec S_ 1 := constantI S_ 1 1#1
  let main_v3 : IVec S_ 1 := (fun x v => Host.reduce IntOp.andi x v reducesTo_S65536x4096_S_d0_1 h_S_) main_v2 main_c
  let main_v4 : FVec F S4096x2 .f32 := Host.absf main_arg1
  let main_cst_0 : FVec F S_ .f32 := constant S_ .f32 0x7F800000#32
  let main_v5 : FVec F S4096x2 .f32 := broadcastInDim S4096x2 ![] bcast_S_S4096x2 main_cst_0
  let main_v6 : IVec S4096x2 1 := cmpf .olt main_v4 main_v5
  let main_c_1 : IVec S_ 1 := constantI S_ 1 1#1
  let main_v7 : IVec S_ 1 := (fun x v => Host.reduce IntOp.andi x v reducesTo_S4096x2_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S65536x2 .f32 := Host.absf main_arg3
  let main_cst_4 : FVec F S_ .f32 := constant S_ .f32 0x7F800000#32
  let main_v15 : FVec F S65536x2 .f32 := broadcastInDim S65536x2 ![] bcast_S_S65536x2 main_cst_4
  let main_v16 : IVec S65536x2 1 := cmpf .olt main_v14 main_v15
  fn_part1 (F := F) main_arg4 main_v13 main_v16
-- ==== Kernel.lean ====
abbrev S65536x4096 : Shape := ⟨2, ![65536, 4096]⟩
abbrev S4096x2 : Shape := ⟨2, ![4096, 2]⟩
abbrev S4096x1 : Shape := ⟨2, ![4096, 1]⟩
abbrev S65536x2 : Shape := ⟨2, ![65536, 2]⟩
abbrev S65536x1 : Shape := ⟨2, ![65536, 1]⟩
abbrev S256x4096 : Shape := ⟨2, ![256, 4096]⟩
abbrev S256x2 : Shape := ⟨2, ![256, 2]⟩
abbrev S256x1 : Shape := ⟨2, ![256, 1]⟩
abbrev S256 : Shape := ⟨1, ![256]⟩
abbrev S4096 : Shape := ⟨1, ![4096]⟩
abbrev S1x4096 : Shape := ⟨2, ![1, 4096]⟩

abbrev nBuf : Space → Nat
  | .hbm => 6
  | .vmem => 9
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S4096x1, .f32⟩
  | .hbm, ⟨3, _⟩ => ⟨S65536x2, .f32⟩
  | .hbm, ⟨4, _⟩ => ⟨S4096x2, .f32⟩
  | .hbm, ⟨5, _⟩ => ⟨S65536x1, .f32⟩
  | .local _ .vmem, ⟨0, _⟩ => ⟨S256x4096, .f32⟩
  | .local _ .vmem, ⟨1, _⟩ => ⟨S256x4096, .f32⟩
  | .local _ .vmem, ⟨2, _⟩ => ⟨S256x2, .f32⟩
  | .local _ .vmem, ⟨3, _⟩ => ⟨S256x2, .f32⟩
  | .local _ .vmem, ⟨4, _⟩ => ⟨S4096x2, .f32⟩
  | .local _ .vmem, ⟨5, _⟩ => ⟨S4096x1, .f32⟩
  | .local _ .vmem, ⟨6, _⟩ => ⟨S4096x2, .f32⟩
  | .local _ .vmem, ⟨7, _⟩ => ⟨S256x1, .f32⟩
  | .local _ .vmem, ⟨8, _⟩ => ⟨S256x1, .f32⟩
  | _, _ => ⟨S65536x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  inb_S4096x2_S4096x2_0_0 : ∀ a, (![0, 0] : Fin 2 → Nat) a + S4096x2.size a ≤ S4096x2.size a
  h_S4096x2 : 0 < S4096x2.numel
  inb_S256x2_S256x2_0_0 : ∀ a, (![0, 0] : Fin 2 → Nat) a + S256x2.size a ≤ S256x2.size a
  h_S256x2 : 0 < S256x2.numel
  inb_S4096x1_S4096x1_0_0 : ∀ a, (![0, 0] : Fin 2 → Nat) a + S4096x1.size a ≤ S4096x1.size a
  h_S4096x1 : 0 < S4096x1.numel
  bitsLt_bf16_f32 : FTy.bits .bf16 < FTy.bits .f32
  reduces_S256x2_S256 : S256x2.Reduces [1] S256
  shapeCasts_S256_S256x1 : S256.ShapeCasts S256x1
  reduces_S4096x2_S4096 : S4096x2.Reduces [1] S4096
  shapeCasts_S4096_S1x4096 : S4096.ShapeCasts S1x4096
  broadcasts_S256x1_S256x4096 : S256x1.Broadcasts S256x4096
  broadcasts_S1x4096_S256x4096 : S1x4096.Broadcasts S256x4096
  inb_S256x1_S256x1_0_0 : ∀ a, (![0, 0] : Fin 2 → Nat) a + S256x1.size a ≤ S256x1.size a
  h_S256x1 : 0 < S256x1.numel
  dot_S256x4096_S4096x2_S256x2_1_0_0_1_n_n_wf : DotDims.WF S256x4096 S4096x2 S256x2 [1] [0] [0] [1] [] []
  dot_S256x2_S4096x2_S256x4096_1_1_0_0_n_n_wf : DotDims.WF S256x2 S4096x2 S256x4096 [1] [1] [0] [0] [] []
  dot_S256x4096_S4096x1_S256x1_1_0_0_1_n_n_wf : DotDims.WF S256x4096 S4096x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S65536x4096.size a
  hwx0_0 : ∀ i : grid0.Coords, EltTy.bits .f32 = 32 ∨ (Rect.block (s := S65536x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2.size a ≤ S65536x2.size a
  hwx0_1 : ∀ i : grid0.Coords, EltTy.bits .f32 = 32 ∨ (Rect.block (s := S65536x2) S256x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x2.size a ≤ S4096x2.size a
  hwx0_2 : ∀ i : grid0.Coords, EltTy.bits .f32 = 32 ∨ (Rect.block (s := S4096x2) S4096x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1.size a ≤ S4096x1.size a
  hwx0_3 : ∀ i : grid0.Coords, EltTy.bits .f32 = 32 ∨ (Rect.block (s := S4096x1) S4096x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x2.size a ≤ S4096x2.size a
  hwx0_4 : ∀ i : grid0.Coords, EltTy.bits .f32 = 32 ∨ (Rect.block (s := S4096x2) S4096x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S65536x1.size a
  hwx0_5 : ∀ i : grid0.Coords, EltTy.bits .f32 = 32 ∨ (Rect.block (s := S65536x1) S256x1.size (cc0_transform_5 i) (hinb0_5 i)).WholeWords (EltTy.packing .f32)

variable [Facts₀]

def dot_S256x4096_S4096x2_S256x2_1_0_0_1_n_n : DotDims S256x4096 S4096x2 S256x2 where
  lhsContracting := [1]
  rhsContracting := [0]
  lhsNonContracting := [0]
  rhsNonContracting := [1]
  lhsBatch := []
  rhsBatch := []
  wf := dot_S256x4096_S4096x2_S256x2_1_0_0_1_n_n_wf
def dot_S256x2_S4096x2_S256x4096_1_1_0_0_n_n : DotDims S256x2 S4096x2 S256x4096 where
  lhsContracting := [1]
  rhsContracting := [1]
  lhsNonContracting := [0]
  rhsNonContracting := [0]
  lhsBatch := []
  rhsBatch := []
  wf := dot_S256x2_S4096x2_S256x4096_1_1_0_0_n_n_wf
def dot_S256x4096_S4096x1_S256x1_1_0_0_1_n_n : DotDims S256x4096 S4096x1 S256x1 where
  lhsContracting := [1]
  rhsContracting := [0]
  lhsNonContracting := [0]
  rhsNonContracting := [1]
  lhsBatch := []
  rhsBatch := []
  wf := dot_S256x4096_S4096x1_S256x1_1_0_0_1_n_n_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S4096x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x4096 : Shape := ⟨2, ![65536, 4096]⟩
abbrev S4096x2 : Shape := ⟨2, ![4096, 2]⟩
abbrev S4096x1 : Shape := ⟨2, ![4096, 1]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S4096 : Shape := ⟨1, ![4096]⟩
abbrev S2x4096 : Shape := ⟨2, ![2, 4096]⟩
abbrev S1x4096 : Shape := ⟨2, ![1, 4096]⟩

abbrev nBuf : Space → Nat
  | .hbm => 31
  | .vmem => 0
  | .smem => 0
  | _ => 0

abbrev bufTy : (tb : Table) → Fin (tcTables nBuf tb) → BufTy
  | .hbm, ⟨0, _⟩ => ⟨S65536x4096, .f32⟩
  | .hbm, ⟨1, _⟩ => ⟨S4096x2, .f32⟩
  | .hbm, ⟨2, _⟩ => ⟨S4096x1, .f32⟩
  | .hbm, ⟨3, _⟩ => ⟨S65536x2, .f32⟩
  | .hbm, ⟨4, _⟩ => ⟨S4096x2, .f32⟩
  | .hbm, ⟨5, _⟩ => ⟨S65536x2, .f32⟩
  | .hbm, ⟨6, _⟩ => ⟨S65536x2, .f32⟩
  | .hbm, ⟨7, _⟩ => ⟨S65536x2, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S4096x2, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S2x4096, .f32⟩
  | .hbm, ⟨16, _⟩ => ⟨S65536x4096, .f32⟩
  | .hbm, ⟨17, _⟩ => ⟨S_, .f32⟩
  | .hbm, ⟨18, _⟩ => ⟨S65536x4096, .f32⟩
  | .hbm, ⟨19, _⟩ => ⟨S65536x4096, .f32⟩
  | .hbm, ⟨20, _⟩ => ⟨S1x4096, .f32⟩
  | .hbm, ⟨21, _⟩ => ⟨S65536x4096, .f32⟩
  | .hbm, ⟨22, _⟩ => ⟨S65536x4096, .f32⟩
  | .hbm, ⟨23, _⟩ => ⟨S65536x4096, .f32⟩
  | .hbm, ⟨24, _⟩ => ⟨S65536x4096, .f32⟩
  | .hbm, ⟨25, _⟩ => ⟨S65536x4096, .f32⟩
  | .hbm, ⟨26, _⟩ => ⟨S_, .f32⟩
  | .hbm, ⟨27, _⟩ => ⟨S65536x4096, .f32⟩
  | .hbm, ⟨28, _⟩ => ⟨S65536x4096, .f32⟩
  | .hbm, ⟨29, _⟩ => ⟨S65536x4096, .f32⟩
  | .hbm, ⟨30, _⟩ => ⟨S65536x1, .f32⟩
  | _, _ => ⟨S65536x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S65536x2_S65536_d1 : S65536x2.ReducesTo [1] S65536
  h_S_ : 0 < S_.numel
  bcast_S65536_S65536x1_0 : S65536.BroadcastsInDim S65536x1 (![0] : Fin 1 → Fin S65536x1.rank)
  reducesTo_S4096x2_S4096_d1 : S4096x2.ReducesTo [1] S4096
  bcast_S4096_S4096x1_0 : S4096.BroadcastsInDim S4096x1 (![0] : Fin 1 → Fin S4096x1.rank)
  transposes_S4096x2_S2x4096_1_0 : S4096x2.Transposes [1, 0] S2x4096
  bcast_S_S65536x4096 : S_.BroadcastsInDim S65536x4096 (![] : Fin 0 → Fin S65536x4096.rank)
  transposes_S4096x1_S1x4096_1_0 : S4096x1.Transposes [1, 0] S1x4096
  bcast_S65536x1_S65536x4096_0_1 : S65536x1.BroadcastsInDim S65536x4096 (![0, 1] : Fin 2 → Fin S65536x4096.rank)
  bcast_S1x4096_S65536x4096_0_1 : S1x4096.BroadcastsInDim S65536x4096 (![0, 1] : Fin 2 → Fin S65536x4096.rank)
  dot_S65536x4096_S4096x2_S65536x2_1_0_0_1_n_n_wf : DotDims.WF S65536x4096 S4096x2 S65536x2 [1] [0] [0] [1] [] []
  dot_S65536x2_S2x4096_S65536x4096_1_0_0_1_n_n_wf : DotDims.WF S65536x2 S2x4096 S65536x4096 [1] [0] [0] [1] [] []
  dot_S65536x4096_S4096x1_S65536x1_1_0_0_1_n_n_wf : DotDims.WF S65536x4096 S4096x1 S65536x1 [1] [0] [0] [1] [] []

variable [Facts₀]

def dot_S65536x4096_S4096x2_S65536x2_1_0_0_1_n_n : DotDims S65536x4096 S4096x2 S65536x2 where
  lhsContracting := [1]
  rhsContracting := [0]
  lhsNonContracting := [0]
  rhsNonContracting := [1]
  lhsBatch := []
  rhsBatch := []
  wf := dot_S65536x4096_S4096x2_S65536x2_1_0_0_1_n_n_wf
def dot_S65536x2_S2x4096_S65536x4096_1_0_0_1_n_n : DotDims S65536x2 S2x4096 S65536x4096 where
  lhsContracting := [1]
  rhsContracting := [0]
  lhsNonContracting := [0]
  rhsNonContracting := [1]
  lhsBatch := []
  rhsBatch := []
  wf := dot_S65536x2_S2x4096_S65536x4096_1_0_0_1_n_n_wf
def dot_S65536x4096_S4096x1_S65536x1_1_0_0_1_n_n : DotDims S65536x4096 S4096x1 S65536x1 where
  lhsContracting := [1]
  rhsContracting := [0]
  lhsNonContracting := [0]
  rhsNonContracting := [1]
  lhsBatch := []
  rhsBatch := []
  wf := dot_S65536x4096_S4096x1_S65536x1_1_0_0_1_n_n_wf

class Facts : Prop extends Facts₀ where

variable [Facts]
-- ==== Proof.RbfSpec.lean ====
/-
  The quantity both programs compute, one output entry at a time.

  Fix one pixel: its row `κ` of the dense matrix (4096 numbers) and its two coordinates `p`. With the tables
  `β` (4096 × 2), `α` (4096 × 1) and the centres `c` (4096 × 2):
    • the displaced pixel is        d a   = p a − ∑ₖ κ k · β (k, a)                  (a = 0, 1);
    • its squared length is         ‖d‖²  = ∑ₐ d a · d a;
    • centre k has squared length   ‖cₖ‖² = ∑ₐ c (k, a) · c (k, a);
    • their inner product is        ⟨d, cₖ⟩ = ∑ₐ d a · c (k, a);
    • the squared distance is       Dₖ = (‖d‖² + ‖cₖ‖²) − 2 · ⟨d, cₖ⟩;
    • the Gaussian weight is        wₖ = exp ((0 − Dₖ) · ⅛);
    • and the entry is              ∑ₖ wₖ · α (k, 0).
  Everything is read on the extended reals, each operation the exact one, each sum a finite sum in any order.
  The output array is this entry at every row of the dense matrix and of the pixel table.

  One program multiplies the negated distance by the word of ⅛, the other divides it by the word of 8; on the
  extended reals these agree everywhere, infinities included (`neg_div_eight`), because dividing by a nonzero real is
  multiplying by its reciprocal and `0 − x` is `−x`.
-/
import Idealize.ShloMosaic.PureOps.Ideal
import Idealize.ShloMosaic.Lib.ValueIdx

noncomputable section

namespace Cert.Rbf

open Idealize.ShloMosaic Idealize.ShloMosaic.ValueIdx

/-- An `a × b` array of extended reals. -/
abbrev Mat (a b : ℕ) : Type := (⟨2, ![a, b]⟩ : Shape).Idx → EReal

/-- The displaced pixel's coordinate `a`: the pixel's own minus its row of the dense matrix against column `a` of `β`. -/
def displaced (κ : Fin 4096 → EReal) (p : Fin 2 → EReal) (β : Mat 4096 2) (a : Fin 2) : EReal :=
  p a - ∑ k : Fin 4096, κ k * β (ix2 k a)

/-- The displaced pixel's squared length. -/
def sqLenPixel (κ : Fin 4096 → EReal) (p : Fin 2 → EReal) (β : Mat 4096 2) : EReal :=
  ∑ a : Fin 2, displaced κ p β a * displaced κ p β a

/-- Centre `k`'s squared length. -/
def sqLenCentre (c : Mat 4096 2) (k : Fin 4096) : EReal :=
  ∑ a : Fin 2, c (ix2 k a) * c (ix2 k a)

/-- The inner product of the displaced pixel with centre `k`. -/
def inner (κ : Fin 4096 → EReal) (p : Fin 2 → EReal) (β c : Mat 4096 2) (k : Fin 4096) : EReal :=
  ∑ a : Fin 2, displaced κ p β a * c (ix2 k a)

/-- The squared distance from the displaced pixel to centre `k`, expanded: both squared lengths minus twice the inner
    product. -/
def sqDist (κ : Fin 4096 → EReal) (p : Fin 2 → EReal) (β c : Mat 4096 2) (k : Fin 4096) : EReal :=
  (sqLenPixel κ p β + sqLenCentre c k) - Ideal.ofBits .f32 0x40000000#32 * inner κ p β c k

/-- The Gaussian weight of centre `k`: the exponential of minus an eighth of the squared distance. -/
def weight (κ : Fin 4096 → EReal) (p : Fin 2 → EReal) (β c : Mat 4096 2) (k : Fin 4096) : EReal :=
  Ideal.exp ((0 - sqDist κ p β c k) * Ideal.ofBits .f32 0x3E000000#32)

/-- One output entry: the weights against `α`. -/
def response (κ : Fin 4096 → EReal) (p : Fin 2 → EReal) (β : Mat 4096 2) (α : Mat 4096 1) (c : Mat 4096 2) : EReal :=
  ∑ k : Fin 4096, weight κ p β c k * α (ix2 k (0 : Fin 1))

/-- The whole output: at row `r` (and the one column) the entry of row `r` of the dense matrix and pixel `r`. -/
def G (K : Mat 65536 4096) (β : Mat 4096 2) (α : Mat 4096 1) (P : Mat 65536 2) (c : Mat 4096 2) : Mat 65536 1 :=
  fun i => response (fun k => K (ix2 (i 0) k)) (fun a => P (ix2 (i 0) a)) β α c

/-- The word `0x41000000` is the real 8. -/
theorem ofBits_eight : Ideal.ofBits .f32 0x41000000#32 = ((8 : ℝ) : EReal) := by
  simp [Ideal.ofBits, Ideal.ieee, -EReal.coe_mul]; norm_num

/-- The word `0x3E000000` is the real ⅛. -/
theorem ofBits_eighth : Ideal.ofBits .f32 0x3E000000#32 = ((1 / 8 : ℝ) : EReal) := by
  simp [Ideal.ofBits, Ideal.ieee, -EReal.coe_mul]; norm_num

/-- The zero word is 0. -/
theorem ofBits_zero : Ideal.ofBits .f32 0x00000000#32 = 0 := by
  simp [Ideal.ofBits, Ideal.ieee]

/-- Negating and dividing by the word of 8 is subtracting from zero and multiplying by the word of ⅛, for every
    extended real. -/
theorem neg_div_eight (x : EReal) :
    Ideal.div (-x) (Ideal.ofBits .f32 0x41000000#32) = (0 - x) * Ideal.ofBits .f32 0x3E000000#32 := by
  rw [ofBits_eight, ofBits_eighth, Ideal.div_coe (by norm_num : (8 : ℝ) ≠ 0), zero_sub]

end Cert.Rbf

end
-- ==== Proof.RbfReference.lean ====
/-
  The reference program computes the specified entry at every row.

  Its stages, read one at a time at coordinates: the product of the dense matrix with `β` and the subtraction from the
  pixel table give the displaced pixel; two sums over the two coordinates give the squared lengths (each begins from the
  zero word, which adds nothing); the product with the transposed centres is the inner product, an entry of the
  transpose at `(a, k)` being the centres' entry `(k, a)`; the column of pixel lengths and the row of centre lengths
  are spread over the `65536 × 4096` grid, added, and twice the inner product subtracted; the result is negated and
  divided by 8, which is the specification's `(0 − D) · ⅛`; after the exponential, the product with `α` sums the
  weights.
-/
import proofs.«123705_j1073741824066_1_alg».proof.Proof.Gen.ReferenceIdeal.Read
import proofs.«123705_j1073741824066_1_alg».proof.Proof.RbfSpec

noncomputable section

namespace Cert.Rbf.Reference

open Idealize.ShloMosaic Idealize.ShloMosaic.ValueIdx Cert.ReferenceIdeal Cert.ReferenceIdeal.Read Cert.Rbf

variable (K : Mat 65536 4096) (β : Mat 4096 2) (α : Mat 4096 1) (P : Mat 65536 2) (c : Mat 4096 2)

/-- The subtraction's entry `(r, a)` is the displaced pixel `r`'s coordinate `a`. -/
theorem displaced_apply (r : Fin 65536) (a : Fin 2) :
    val_main_v1 (F := Ideal) K β P (ix2 r a) = displaced (fun k => K (ix2 r k)) (fun a => P (ix2 r a)) β a := by
  rw [val_main_v1_apply, val_main_v0_apply]
  show P (ix2 r a) - _ = _
  unfold displaced
  refine congrArg (P (ix2 r a) - ·) (Finset.sum_congr rfl fun k _ => ?_)
  have el : lidx_main_v0 (ix2 r a) k = ix2 r k :=
    funext fun d => Fin.ext (by match d with | ⟨0, _⟩ => rfl | ⟨1, _⟩ => rfl)
  have er : ridx_main_v0 (ix2 r a) k = ix2 k a :=
    funext fun d => Fin.ext (by match d with | ⟨0, _⟩ => rfl | ⟨1, _⟩ => rfl)
  rw [el, er]

/-- The first sum's entry `r` is the displaced pixel `r`'s squared length. -/
theorem sqLenPixel_apply (r : Fin 65536) :
    val_main_v3 (F := Ideal) K β P (ix1 r) = sqLenPixel (fun k => K (ix2 r k)) (fun a => P (ix2 r a)) β := by
  rw [val_main_v3_apply, val_main_cst_apply]
  show Ideal.ofBits .f32 0x00000000#32 + _ = _
  rw [ofBits_zero, zero_add]
  unfold sqLenPixel
  refine Finset.sum_congr rfl fun a _ => ?_
  have e : idx_main_v3 (ix1 r) a = ix2 r a :=
    funext fun d => Fin.ext (by match d with | ⟨0, _⟩ => rfl | ⟨1, _⟩ => rfl)
  rw [e, val_main_v2_apply, displaced_apply]
  rfl

/-- The second sum's entry `k` is centre `k`'s squared length. -/
theorem sqLenCentre_apply (k : Fin 4096) : val_main_v6 (F := Ideal) c (ix1 k) = sqLenCentre c k := by
  rw [val_main_v6_apply, val_main_cst_0_apply]
  show Ideal.ofBits .f32 0x00000000#32 + _ = _
  rw [ofBits_zero, zero_add]
  unfold sqLenCentre
  refine Finset.sum_congr rfl fun a _ => ?_
  have e : idx_main_v6 (ix1 k) a = ix2 k a :=
    funext fun d => Fin.ext (by match d with | ⟨0, _⟩ => rfl | ⟨1, _⟩ => rfl)
  rw [e, val_main_v5_apply]
  rfl

/-- The product with the transposed centres, at `(r, k)`, is the inner product of displaced pixel `r` with centre `k`. -/
theorem inner_apply (r : Fin 65536) (k : Fin 4096) :
    val_main_v9 (F := Ideal) K β P c (ix2 r k) = inner (fun k => K (ix2 r k)) (fun a => P (ix2 r a)) β c k := by
  rw [val_main_v9_apply]
  unfold inner
  refine Finset.sum_congr rfl fun a _ => ?_
  have el : lidx_main_v9 (ix2 r k) a = ix2 r a :=
    funext fun d => Fin.ext (by match d with | ⟨0, _⟩ => rfl | ⟨1, _⟩ => rfl)
  have er : idx_main_v8 (ridx_main_v9 (ix2 r k) a) = ix2 k a :=
    funext fun d => Fin.ext (by match d with | ⟨0, _⟩ => rfl | ⟨1, _⟩ => rfl)
  rw [el, displaced_apply, val_main_v8_apply, er]

/-- The subtraction of twice the inner product from the spread lengths, at `(r, k)`, is the squared distance. -/
theorem sqDist_apply (r : Fin 65536) (k : Fin 4096) :
    val_main_v16 (F := Ideal) K β P c (ix2 r k) = sqDist (fun k => K (ix2 r k)) (fun a => P (ix2 r a)) β c k := by
  have e13 : idx_main_v4 (idx_main_v13 (ix2 r k)) = ix1 r :=
    funext fun d => Fin.ext (by match d with | ⟨0, _⟩ => rfl)
  have e14 : idx_main_v7 (idx_main_v12 (idx_main_v14 (ix2 r k))) = ix1 k :=
    funext fun d => Fin.ext (by match d with | ⟨0, _⟩ => rfl)
  rw [val_main_v16_apply, val_main_v15_apply, val_main_v13_apply, val_main_v4_apply, e13, sqLenPixel_apply,
    val_main_v14_apply, val_main_v12_apply, val_main_v7_apply, e14, sqLenCentre_apply,
    val_main_v11_apply, val_main_v10_apply, val_main_cst_1_apply, inner_apply]
  rfl

/-- After negation, division by 8 and the exponential, the entry `(r, k)` is the Gaussian weight. -/
theorem weight_apply (r : Fin 65536) (k : Fin 4096) :
    val_main_v20 (F := Ideal) K β P c (ix2 r k) = weight (fun k => K (ix2 r k)) (fun a => P (ix2 r a)) β c k := by
  rw [val_main_v20_apply, val_main_v19_apply, val_main_v17_apply, val_main_v18_apply, val_main_cst_2_apply, sqDist_apply]
  show Ideal.exp (Ideal.div (-_) (Ideal.ofBits .f32 0x41000000#32)) = _
  rw [neg_div_eight]
  rfl

/-- The reference's result is the specified array. -/
theorem result_eq : val_main_v21 (F := Ideal) K β α P c = G K β α P c := by
  funext i
  obtain ⟨r, u, rfl⟩ : ∃ (r : Fin 65536) (u : Fin 1), i = ix2 r u := ⟨i 0, i 1, eq_ix2 i⟩
  have hu : u = 0 := Subsingleton.elim _ _
  subst hu
  rw [val_main_v21_apply]
  show _ = response (fun k => K (ix2 r k)) (fun a => P (ix2 r a)) β α c
  unfold response
  refine Finset.sum_congr rfl fun k _ => ?_
  have el : lidx_main_v21 (ix2 r (0 : Fin 1)) k = ix2 r k :=
    funext fun d => Fin.ext (by match d with | ⟨0, _⟩ => rfl | ⟨1, _⟩ => rfl)
  have er : ridx_main_v21 (ix2 r (0 : Fin 1)) k = ix2 k (0 : Fin 1) :=
    funext fun d => Fin.ext (by match d with | ⟨0, _⟩ => rfl | ⟨1, _⟩ => rfl)
  rw [el, er, weight_apply]

end Cert.Rbf.Reference

end
-- ==== Proof.LibColumnLayout.lean ====
/-
  Column vectors read at an index given by coordinates.

  A sum along the rows of an `[a, b]` array is an `[a]` vector; kept as a matrix it is the column `[a, 1]`, and a
  column is spread along the second axis to `[a, b]`. Each of these re-lays values without
  computing anything: the result at an index is the operand at one index, named here by coordinates.
    • `[a] → [a, 1]` (a shape cast): entry `(i, u)` is entry `i`, whatever the unit coordinate `u`;
    • `[a, 1] → [a, b]` (a broadcast): entry `(i, j)` is entry `(i, 0)`;
    • a sum along the second axis of an `[a, b]` array of extended reals: entry `i` is `∑ⱼ` of entry `(i, j)`.
  The companions for rows (`[a] → [1, a]`, `[1, b] → [a, b]`) and the matrix transpose are the library's.
-/
import Idealize.ShloMosaic.Lib.ValueLayout
import Idealize.ShloMosaic.PureOps.Ideal.Laws

namespace Cert.ColumnLayout

open Idealize.ShloMosaic Idealize.ShloMosaic.ValueIdx

variable {α : Type}

/-- An `[a]` array cast to the column `[a, 1]` reads, at `(i, u)`, the operand at `i`: both indices have the same
    row-major position, `i·1 + u = i` since `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A sum along the second axis of an `[a, b]` array of extended reals, from the zero accumulator, reads at `i` the sum
    over `j` of the entries `(i, j)`. The last hypothesis says that the accumulator's word, zero, is the neutral
    word of addition. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction .add [1] ⟨1, ![a]⟩ src 0x00000000#32 h hφ hacc (ix1 i) = ∑ j : Fin b, src (ix2 i j) := by
  refine (Ideal.multiReduction_add_single src 0x00000000#32 h hφ hacc (ix1 i)).trans ?_
  show ∑ j : Fin b, src (h.lift (ix1 i) j) = ∑ j : Fin b, src (ix2 i j)
  refine Finset.sum_congr rfl fun j _ => congrArg src (funext fun c => Fin.ext ?_)
  match c with
  | ⟨0, _⟩ => rfl
  | ⟨1, _⟩ => rfl

end Cert.ColumnLayout
-- ==== Proof.RbfBlock.lean ====
/-
  What one grid point stores, read at coordinates.

  A grid point holds 256 rows of the dense matrix and the 256 pixels that go with them, together with the whole
  tables. The body's one stored value is a chain of array operations; read at row `r` of the block it is the
  specified entry of that row and that pixel:
    • a matrix product into the zero accumulator is, at `(p, q)`, the sum over the contracted coordinate of the
      operands' products — rows against columns for the first and third product, rows against rows for the second
      (both operands contracted along their second axis);
    • rounding an operand to a narrower format is the identity on the extended reals;
    • a sum along the second axis, kept as a column and spread over 4096 columns, is the row's sum at every column;
      the centres' sums, laid as a row and spread over 256 rows, are the column's centre's sum at every row;
    • a splatted scalar is its value at every index.
-/
import proofs.«123705_j1073741824066_1_alg».proof.Proof.Gen.KernelIdeal.Skeleton
import proofs.«123705_j1073741824066_1_alg».proof.Proof.RbfSpec
import proofs.«123705_j1073741824066_1_alg».proof.Proof.LibColumnLayout
import Idealize.ShloMosaic.Lib.ValueLayout
import Idealize.ShloMosaic.PureOps.Ideal.Laws

noncomputable section

namespace Cert.Rbf.Kernel

open Idealize.ShloMosaic Idealize.ShloMosaic.ValueIdx Cert.KernelIdeal Cert.KernelIdeal.Gen
open Cert.Rbf Cert.ColumnLayout

/-! ## The three matrix products -/

theorem matmul_rows_cols_2_l0 (i : S256x2.Idx) (q : dot_S256x4096_S4096x2_S256x2_1_0_0_1_n_n.contr.Idx) : (dot_S256x4096_S4096x2_S256x2_1_0_0_1_n_n.lhsIdx i q 0).val = (i 0).val := by
  unfold DotDims.lhsIdx
  rw [dif_neg (show ¬(0 : Fin S256x4096.rank) ∈ dot_S256x4096_S4096x2_S256x2_1_0_0_1_n_n.lhsBatch by decide),
    dif_pos (show (0 : Fin S256x4096.rank) ∈ dot_S256x4096_S4096x2_S256x2_1_0_0_1_n_n.lhsNonContracting by decide)]
  rfl
theorem matmul_rows_cols_2_l1 (i : S256x2.Idx) (q : dot_S256x4096_S4096x2_S256x2_1_0_0_1_n_n.contr.Idx) : (dot_S256x4096_S4096x2_S256x2_1_0_0_1_n_n.lhsIdx i q 1).val = (q ⟨0, by decide⟩).val :=
  dot_S256x4096_S4096x2_S256x2_1_0_0_1_n_n.lhsIdx_val_of_single rfl i q
theorem matmul_rows_cols_2_rc (i : S256x2.Idx) (q : dot_S256x4096_S4096x2_S256x2_1_0_0_1_n_n.contr.Idx) : (dot_S256x4096_S4096x2_S256x2_1_0_0_1_n_n.rhsIdx i q 0).val = (q ⟨0, by decide⟩).val :=
  dot_S256x4096_S4096x2_S256x2_1_0_0_1_n_n.rhsIdx_val_of_single rfl i q
theorem matmul_rows_cols_2_rn (i : S256x2.Idx) (q : dot_S256x4096_S4096x2_S256x2_1_0_0_1_n_n.contr.Idx) : (dot_S256x4096_S4096x2_S256x2_1_0_0_1_n_n.rhsIdx i q 1).val = (i 1).val := by
  unfold DotDims.rhsIdx
  rw [dif_neg (show ¬(1 : Fin S4096x2.rank) ∈ dot_S256x4096_S4096x2_S256x2_1_0_0_1_n_n.rhsBatch by decide),
    dif_pos (show (1 : Fin S4096x2.rank) ∈ dot_S256x4096_S4096x2_S256x2_1_0_0_1_n_n.rhsNonContracting by decide)]
  rfl

/-- The product of a `256 × 4096` block with a `4096 × 2` table, into zero: rows against columns. -/
theorem matmul_rows_cols_2 (l : FVec Ideal S256x4096 .bf16) (w : FVec Ideal S4096x2 .bf16) (p : Fin 256) (q : Fin 2) :
    matmul dot_S256x4096_S4096x2_S256x2_1_0_0_1_n_n none l w (constant S256x2 .f32 0x00000000#32) (ix2 p q)
      = ∑ k : Fin 4096, l (ix2 p k) * w (ix2 k q) := by
  refine (Ideal.matmul_constant_zero_apply dot_S256x4096_S4096x2_S256x2_1_0_0_1_n_n none l w (ix2 p q)).trans ?_
  rw [← Equiv.sum_comp (contrEquiv1 dot_S256x4096_S4096x2_S256x2_1_0_0_1_n_n 4096 rfl rfl).symm]
  refine Finset.sum_congr rfl fun k _ => ?_
  have hk := contrEquiv1_symm_val dot_S256x4096_S4096x2_S256x2_1_0_0_1_n_n 4096 rfl rfl k
  have el : dot_S256x4096_S4096x2_S256x2_1_0_0_1_n_n.lhsIdx (ix2 p q) ((contrEquiv1 dot_S256x4096_S4096x2_S256x2_1_0_0_1_n_n 4096 rfl rfl).symm k) = ix2 p k :=
    funext fun d => Fin.ext (by
      match d with
      | ⟨0, _⟩ => exact matmul_rows_cols_2_l0 _ _
      | ⟨1, _⟩ => exact (matmul_rows_cols_2_l1 _ _).trans hk)
  have er : dot_S256x4096_S4096x2_S256x2_1_0_0_1_n_n.rhsIdx (ix2 p q) ((contrEquiv1 dot_S256x4096_S4096x2_S256x2_1_0_0_1_n_n 4096 rfl rfl).symm k) = ix2 k q :=
    funext fun d => Fin.ext (by
      match d with
      | ⟨0, _⟩ => exact (matmul_rows_cols_2_rc _ _).trans hk
      | ⟨1, _⟩ => exact matmul_rows_cols_2_rn _ _)
  rw [el, er]

theorem matmul_rows_rows_l0 (i : S256x4096.Idx) (q : dot_S256x2_S4096x2_S256x4096_1_1_0_0_n_n.contr.Idx) : (dot_S256x2_S4096x2_S256x4096_1_1_0_0_n_n.lhsIdx i q 0).val = (i 0).val := by
  unfold DotDims.lhsIdx
  rw [dif_neg (show ¬(0 : Fin S256x2.rank) ∈ dot_S256x2_S4096x2_S256x4096_1_1_0_0_n_n.lhsBatch by decide),
    dif_pos (show (0 : Fin S256x2.rank) ∈ dot_S256x2_S4096x2_S256x4096_1_1_0_0_n_n.lhsNonContracting by decide)]
  rfl
theorem matmul_rows_rows_l1 (i : S256x4096.Idx) (q : dot_S256x2_S4096x2_S256x4096_1_1_0_0_n_n.contr.Idx) : (dot_S256x2_S4096x2_S256x4096_1_1_0_0_n_n.lhsIdx i q 1).val = (q ⟨0, by decide⟩).val :=
  dot_S256x2_S4096x2_S256x4096_1_1_0_0_n_n.lhsIdx_val_of_single rfl i q
theorem matmul_rows_rows_rc (i : S256x4096.Idx) (q : dot_S256x2_S4096x2_S256x4096_1_1_0_0_n_n.contr.Idx) : (dot_S256x2_S4096x2_S256x4096_1_1_0_0_n_n.rhsIdx i q 1).val = (q ⟨0, by decide⟩).val :=
  dot_S256x2_S4096x2_S256x4096_1_1_0_0_n_n.rhsIdx_val_of_single rfl i q
theorem matmul_rows_rows_rn (i : S256x4096.Idx) (q : dot_S256x2_S4096x2_S256x4096_1_1_0_0_n_n.contr.Idx) : (dot_S256x2_S4096x2_S256x4096_1_1_0_0_n_n.rhsIdx i q 0).val = (i 1).val := by
  unfold DotDims.rhsIdx
  rw [dif_neg (show ¬(0 : Fin S4096x2.rank) ∈ dot_S256x2_S4096x2_S256x4096_1_1_0_0_n_n.rhsBatch by decide),
    dif_pos (show (0 : Fin S4096x2.rank) ∈ dot_S256x2_S4096x2_S256x4096_1_1_0_0_n_n.rhsNonContracting by decide)]
  rfl

/-- The product of a `256 × 2` block with a `4096 × 2` table contracted along BOTH second axes, into zero: rows against rows. -/
theorem matmul_rows_rows (l : FVec Ideal S256x2 .bf16) (w : FVec Ideal S4096x2 .bf16) (p : Fin 256) (q : Fin 4096) :
    matmul dot_S256x2_S4096x2_S256x4096_1_1_0_0_n_n none l w (constant S256x4096 .f32 0x00000000#32) (ix2 p q)
      = ∑ k : Fin 2, l (ix2 p k) * w (ix2 q k) := by
  refine (Ideal.matmul_constant_zero_apply dot_S256x2_S4096x2_S256x4096_1_1_0_0_n_n none l w (ix2 p q)).trans ?_
  rw [← Equiv.sum_comp (contrEquiv1 dot_S256x2_S4096x2_S256x4096_1_1_0_0_n_n 2 rfl rfl).symm]
  refine Finset.sum_congr rfl fun k _ => ?_
  have hk := contrEquiv1_symm_val dot_S256x2_S4096x2_S256x4096_1_1_0_0_n_n 2 rfl rfl k
  have el : dot_S256x2_S4096x2_S256x4096_1_1_0_0_n_n.lhsIdx (ix2 p q) ((contrEquiv1 dot_S256x2_S4096x2_S256x4096_1_1_0_0_n_n 2 rfl rfl).symm k) = ix2 p k :=
    funext fun d => Fin.ext (by
      match d with
      | ⟨0, _⟩ => exact matmul_rows_rows_l0 _ _
      | ⟨1, _⟩ => exact (matmul_rows_rows_l1 _ _).trans hk)
  have er : dot_S256x2_S4096x2_S256x4096_1_1_0_0_n_n.rhsIdx (ix2 p q) ((contrEquiv1 dot_S256x2_S4096x2_S256x4096_1_1_0_0_n_n 2 rfl rfl).symm k) = ix2 q k :=
    funext fun d => Fin.ext (by
      match d with
      | ⟨1, _⟩ => exact (matmul_rows_rows_rc _ _).trans hk
      | ⟨0, _⟩ => exact matmul_rows_rows_rn _ _)
  rw [el, er]

theorem matmul_rows_cols_1_l0 (i : S256x1.Idx) (q : dot_S256x4096_S4096x1_S256x1_1_0_0_1_n_n.contr.Idx) : (dot_S256x4096_S4096x1_S256x1_1_0_0_1_n_n.lhsIdx i q 0).val = (i 0).val := by
  unfold DotDims.lhsIdx
  rw [dif_neg (show ¬(0 : Fin S256x4096.rank) ∈ dot_S256x4096_S4096x1_S256x1_1_0_0_1_n_n.lhsBatch by decide),
    dif_pos (show (0 : Fin S256x4096.rank) ∈ dot_S256x4096_S4096x1_S256x1_1_0_0_1_n_n.lhsNonContracting by decide)]
  rfl
theorem matmul_rows_cols_1_l1 (i : S256x1.Idx) (q : dot_S256x4096_S4096x1_S256x1_1_0_0_1_n_n.contr.Idx) : (dot_S256x4096_S4096x1_S256x1_1_0_0_1_n_n.lhsIdx i q 1).val = (q ⟨0, by decide⟩).val :=
  dot_S256x4096_S4096x1_S256x1_1_0_0_1_n_n.lhsIdx_val_of_single rfl i q
theorem matmul_rows_cols_1_rc (i : S256x1.Idx) (q : dot_S256x4096_S4096x1_S256x1_1_0_0_1_n_n.contr.Idx) : (dot_S256x4096_S4096x1_S256x1_1_0_0_1_n_n.rhsIdx i q 0).val = (q ⟨0, by decide⟩).val :=
  dot_S256x4096_S4096x1_S256x1_1_0_0_1_n_n.rhsIdx_val_of_single rfl i q
theorem matmul_rows_cols_1_rn (i : S256x1.Idx) (q : dot_S256x4096_S4096x1_S256x1_1_0_0_1_n_n.contr.Idx) : (dot_S256x4096_S4096x1_S256x1_1_0_0_1_n_n.rhsIdx i q 1).val = (i 1).val := by
  unfold DotDims.rhsIdx
  rw [dif_neg (show ¬(1 : Fin S4096x1.rank) ∈ dot_S256x4096_S4096x1_S256x1_1_0_0_1_n_n.rhsBatch by decide),
    dif_pos (show (1 : Fin S4096x1.rank) ∈ dot_S256x4096_S4096x1_S256x1_1_0_0_1_n_n.rhsNonContracting by decide)]
  rfl

/-- The product of a `256 × 4096` block with a `4096 × 1` table, into zero: rows against the one column. -/
theorem matmul_rows_cols_1 (l : FVec Ideal S256x4096 .bf16) (w : FVec Ideal S4096x1 .bf16) (p : Fin 256) (q : Fin 1) :
    matmul dot_S256x4096_S4096x1_S256x1_1_0_0_1_n_n none l w (constant S256x1 .f32 0x00000000#32) (ix2 p q)
      = ∑ k : Fin 4096, l (ix2 p k) * w (ix2 k q) := by
  refine (Ideal.matmul_constant_zero_apply dot_S256x4096_S4096x1_S256x1_1_0_0_1_n_n none l w (ix2 p q)).trans ?_
  rw [← Equiv.sum_comp (contrEquiv1 dot_S256x4096_S4096x1_S256x1_1_0_0_1_n_n 4096 rfl rfl).symm]
  refine Finset.sum_congr rfl fun k _ => ?_
  have hk := contrEquiv1_symm_val dot_S256x4096_S4096x1_S256x1_1_0_0_1_n_n 4096 rfl rfl k
  have el : dot_S256x4096_S4096x1_S256x1_1_0_0_1_n_n.lhsIdx (ix2 p q) ((contrEquiv1 dot_S256x4096_S4096x1_S256x1_1_0_0_1_n_n 4096 rfl rfl).symm k) = ix2 p k :=
    funext fun d => Fin.ext (by
      match d with
      | ⟨0, _⟩ => exact matmul_rows_cols_1_l0 _ _
      | ⟨1, _⟩ => exact (matmul_rows_cols_1_l1 _ _).trans hk)
  have er : dot_S256x4096_S4096x1_S256x1_1_0_0_1_n_n.rhsIdx (ix2 p q) ((contrEquiv1 dot_S256x4096_S4096x1_S256x1_1_0_0_1_n_n 4096 rfl rfl).symm k) = ix2 k q :=
    funext fun d => Fin.ext (by
      match d with
      | ⟨0, _⟩ => exact (matmul_rows_cols_1_rc _ _).trans hk
      | ⟨1, _⟩ => exact matmul_rows_cols_1_rn _ _)
  rw [el, er]

/-! ## The block's quantities -/

variable (x0 : Vec Ideal S256x4096 .f32) (x2 : Vec Ideal S4096x2 .f32) (x1 : Vec Ideal S256x2 .f32)
  (x4 : Vec Ideal S4096x2 .f32) (x3 : Vec Ideal S4096x1 .f32)

/-- The block's displaced pixels. -/
def displacedBlock : FVec Ideal S256x2 .f32 :=
  subf x1 (matmul dot_S256x4096_S4096x2_S256x2_1_0_0_1_n_n none (truncf .bf16 x0 bitsLt_bf16_f32) (truncf .bf16 x2 bitsLt_bf16_f32)
    (constant S256x2 .f32 0x00000000#32))

/-- The block's squared distances to every centre. -/
def sqDistBlock : FVec Ideal S256x4096 .f32 :=
  subf
    (addf
      (broadcastTo S256x4096
        (shapeCast S256x1
          (multiReduction .add [1] S256 (mulf (displacedBlock x0 x2 x1) (displacedBlock x0 x2 x1)) 0x00000000#32
            reduces_S256x2_S256 (.inl rfl) rfl)
          shapeCasts_S256_S256x1)
        broadcasts_S256x1_S256x4096)
      (broadcastTo S256x4096
        (shapeCast S1x4096
          (multiReduction .add [1] S4096 (mulf x4 x4) 0x00000000#32 reduces_S4096x2_S4096 (.inl rfl) rfl)
          shapeCasts_S4096_S1x4096)
        broadcasts_S1x4096_S256x4096))
    (mulf (broadcast S256x4096 (Scalar.ofBits .f32 0x40000000#32))
      (matmul dot_S256x2_S4096x2_S256x4096_1_1_0_0_n_n none (truncf .bf16 (displacedBlock x0 x2 x1) bitsLt_bf16_f32) (truncf .bf16 x4 bitsLt_bf16_f32)
        (constant S256x4096 .f32 0x00000000#32)))

/-- The block's Gaussian weights. -/
def weightBlock : FVec Ideal S256x4096 .f32 :=
  exp (mulf (subf (broadcast S256x4096 (Scalar.ofBits .f32 0x00000000#32)) (sqDistBlock x0 x2 x1 x4))
    (broadcast S256x4096 (Scalar.ofBits .f32 0x3E000000#32)))

/-- The stored value is the product of the weights with `α`. -/
theorem stored_eq : k0_pay1 (F := Ideal) x0 x2 x1 x4 x3
    = matmul dot_S256x4096_S4096x1_S256x1_1_0_0_1_n_n none (truncf .bf16 (weightBlock x0 x2 x1 x4) bitsLt_bf16_f32) (truncf .bf16 x3 bitsLt_bf16_f32)
        (constant S256x1 .f32 0x00000000#32) := rfl

/-- Entry `(r, a)` of the displaced block is the displaced pixel of row `r`. -/
theorem displacedBlock_apply (r : Fin 256) (a : Fin 2) :
    displacedBlock x0 x2 x1 (ix2 r a) = displaced (fun k => x0 (ix2 r k)) (fun a => x1 (ix2 r a)) x2 a := by
  show x1 (ix2 r a) - _ = _
  unfold displaced
  exact congrArg (x1 (ix2 r a) - ·) (matmul_rows_cols_2 _ _ r a)

/-- Entry `(r, k)` of the distance block is the squared distance from row `r`'s displaced pixel to centre `k`. -/
theorem sqDistBlock_apply (r : Fin 256) (k : Fin 4096) :
    sqDistBlock x0 x2 x1 x4 (ix2 r k) = sqDist (fun k => x0 (ix2 r k)) (fun a => x1 (ix2 r a)) x2 x4 k := by
  have hp : broadcastTo S256x4096
        (shapeCast S256x1
          (multiReduction .add [1] S256 (mulf (displacedBlock x0 x2 x1) (displacedBlock x0 x2 x1)) 0x00000000#32
            reduces_S256x2_S256 (.inl rfl) rfl)
          shapeCasts_S256_S256x1)
        broadcasts_S256x1_S256x4096 (ix2 r k)
      = sqLenPixel (fun k => x0 (ix2 r k)) (fun a => x1 (ix2 r a)) x2 := by
    refine (broadcastTo_a1_ab_apply _ _ r k).trans ((shapeCast_a_a1_apply _ _ r 0).trans
      ((rowSum_apply _ _ _ _ r).trans ?_))
    unfold sqLenPixel
    refine Finset.sum_congr rfl fun a _ => ?_
    show displacedBlock x0 x2 x1 (ix2 r a) * displacedBlock x0 x2 x1 (ix2 r a) = _
    rw [displacedBlock_apply]
  have hc : broadcastTo S256x4096
        (shapeCast S1x4096
          (multiReduction (F := Ideal) .add [1] S4096 (mulf x4 x4) 0x00000000#32 reduces_S4096x2_S4096 (.inl rfl) rfl)
          shapeCasts_S4096_S1x4096)
        broadcasts_S1x4096_S256x4096 (ix2 r k)
      = sqLenCentre x4 k := by
    refine (broadcastTo_1b_ab_apply _ _ r k).trans ((shapeCast_a_1a_apply _ _ 0 k).trans
      ((rowSum_apply _ _ _ _ k).trans ?_))
    rfl
  have hi : matmul dot_S256x2_S4096x2_S256x4096_1_1_0_0_n_n none (truncf .bf16 (displacedBlock x0 x2 x1) bitsLt_bf16_f32)
        (truncf .bf16 x4 bitsLt_bf16_f32) (constant S256x4096 .f32 0x00000000#32) (ix2 r k)
      = inner (fun k => x0 (ix2 r k)) (fun a => x1 (ix2 r a)) x2 x4 k := by
    refine (matmul_rows_rows _ _ r k).trans ?_
    unfold inner
    refine Finset.sum_congr rfl fun a _ => ?_
    show displacedBlock x0 x2 x1 (ix2 r a) * x4 (ix2 k a) = _
    rw [displacedBlock_apply]
  unfold sqDist
  rw [← hp, ← hc, ← hi]
  rfl

/-- Entry `(r, k)` of the weight block is the Gaussian weight of centre `k` for row `r`. -/
theorem weightBlock_apply (r : Fin 256) (k : Fin 4096) :
    weightBlock x0 x2 x1 x4 (ix2 r k) = weight (fun k => x0 (ix2 r k)) (fun a => x1 (ix2 r a)) x2 x4 k := by
  show Ideal.exp ((Ideal.ofBits .f32 0x00000000#32 - sqDistBlock x0 x2 x1 x4 (ix2 r k)) * Ideal.ofBits .f32 0x3E000000#32) = _
  rw [sqDistBlock_apply, ofBits_zero]
  rfl

/-- The stored value at row `r` of the block is the specified entry of that row and that pixel. -/
theorem stored_apply (r : Fin 256) (u : Fin 1) :
    k0_pay1 (F := Ideal) x0 x2 x1 x4 x3 (ix2 r u)
      = response (fun k => x0 (ix2 r k)) (fun a => x1 (ix2 r a)) x2 x3 x4 := by
  have hu : u = 0 := Subsingleton.elim _ _
  subst hu
  rw [stored_eq]
  refine (matmul_rows_cols_1 _ _ r 0).trans ?_
  unfold response
  refine Finset.sum_congr rfl fun k _ => ?_
  show weightBlock x0 x2 x1 x4 (ix2 r k) * x3 (ix2 k 0) = _
  rw [weightBlock_apply]

end Cert.Rbf.Kernel

end
-- ==== Proof.RbfArray.lean ====
/-
  From grid points to the whole output array.

  The grid has 256 points. Point `t` is handed rows `256·t … 256·t + 255` of the dense matrix and of the pixel table,
  and the three small tables whole; it writes back rows `256·t … 256·t + 255` of the output. So an entry of a block is
  the array's entry at block index × block extent + the coordinate inside the block, on each axis; and what point `t`
  writes back, row `r`, is the specified entry of array row `256·t + r` — which is block `t` of the specified output.
  Output row `i` lies in the block of point `i / 256`, so the blocks cover the output, and the array ends holding
  the specified output everywhere.
-/
import proofs.«123705_j1073741824066_1_alg».proof.Proof.Gen.KernelIdeal.Value
import proofs.«123705_j1073741824066_1_alg».proof.Proof.RbfBlock

noncomputable section

open Idealize.ShloMosaic Idealize.ShloMosaic.TcCoe Idealize.SL.Sem Idealize.ShloMosaic.ValueIdx
open Idealize.ShloMosaic.Pipeline (Dat)

namespace Cert.Rbf.Array

open Cert.KernelIdeal Cert.KernelIdeal.Gen Cert.KernelIdeal.Value Cert.Rbf

variable (m : (ℓ : Loc nD τ sig) → Buf (Elt Ideal) ℓ) (ρ : Dev nD → PrngReg)

/-- The zero offsets of a whole-block access, spelt as the printed program spells them. -/
theorem zero_offsets : (![0, 0] : Fin 2 → Nat) = fun _ => 0 := funext fun a => by fin_cases a <;> rfl

/-- The printed index maps over the 256 grid points: the dense matrix, the pixels and the output move with the point
    along rows; the three tables stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at a point, read off its array -/

/-- Row `r` of point `t`'s block of the dense matrix is row `256·t + r` of the matrix. -/
theorem denseBlock_apply (c : Dev nD) (t : Fin cfg0.N) (r : Fin 256) (k : Fin 4096) (R : Fin 65536)
    (hR : R.val = t.val * 256 + r.val) :
    (iblk m c 0 t : Vec Ideal S256x4096 .f32) (ix2 r k) = (V m c main_arg0 : S65536x4096.Idx → EReal) (ix2 R k) := by
  obtain ⟨e0, e1, -⟩ := block_indices t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * r.val = R.val; rw [e0, hR]; omega
  | ⟨1, _⟩ => show win0_0.index t (1 : Fin 2) * 4096 + 1 * k.val = k.val; rw [e1]; omega

/-- Row `r` of point `t`'s block of the pixel table is pixel `256·t + r`. -/
theorem pixelBlock_apply (c : Dev nD) (t : Fin cfg0.N) (r : Fin 256) (a : Fin 2) (R : Fin 65536)
    (hR : R.val = t.val * 256 + r.val) :
    (iblk m c 1 t : Vec Ideal S256x2 .f32) (ix2 r a) = (V m c main_arg3 : S65536x2.Idx → EReal) (ix2 R a) := by
  obtain ⟨-, -, e0, e1, -⟩ := block_indices t
  unfold iblk
  rw [View.read_apply]
  show V m c main_arg3 _ = V m c main_arg3 _
  refine congrArg (V m c main_arg3) (funext fun d => Fin.ext ?_)
  match d with
  | ⟨0, _⟩ => show win0_1.index t (0 : Fin 2) * 256 + 1 * r.val = R.val; rw [e0, hR]; omega
  | ⟨1, _⟩ => show win0_1.index t (1 : Fin 2) * 2 + 1 * a.val = a.val; rw [e1]; omega

/-- Every point's block of `β` is the whole table. -/
theorem betaBlock_eq (c : Dev nD) (t : Fin cfg0.N) :
    (iblk m c 2 t : Vec Ideal S4096x2 .f32) = (V m c main_arg1 : S4096x2.Idx → EReal) := by
  obtain ⟨-, -, -, -, e0, e1, -⟩ := block_indices t
  funext x
  unfold iblk
  rw [View.read_apply]
  show V m c main_arg1 _ = V m c main_arg1 _
  refine congrArg (V m c main_arg1) (funext fun d => Fin.ext ?_)
  match d with
  | ⟨0, _⟩ => show win0_2.index t (0 : Fin 2) * 4096 + 1 * (x 0).val = (x 0).val; rw [e0]; omega
  | ⟨1, _⟩ => show win0_2.index t (1 : Fin 2) * 2 + 1 * (x 1).val = (x 1).val; rw [e1]; omega

/-- Every point's block of `α` is the whole table. -/
theorem alphaBlock_eq (c : Dev nD) (t : Fin cfg0.N) :
    (iblk m c 3 t : Vec Ideal S4096x1 .f32) = (V m c main_arg2 : S4096x1.Idx → EReal) := by
  obtain ⟨-, -, -, -, -, -, e0, e1, -⟩ := block_indices t
  funext x
  unfold iblk
  rw [View.read_apply]
  show V m c main_arg2 _ = V m c main_arg2 _
  refine congrArg (V m c main_arg2) (funext fun d => Fin.ext ?_)
  match d with
  | ⟨0, _⟩ => show win0_3.index t (0 : Fin 2) * 4096 + 1 * (x 0).val = (x 0).val; rw [e0]; omega
  | ⟨1, _⟩ => show win0_3.index t (1 : Fin 2) * 1 + 1 * (x 1).val = (x 1).val; rw [e1]; omega

/-- Every point's block of the centres is the whole table. -/
theorem centreBlock_eq (c : Dev nD) (t : Fin cfg0.N) :
    (iblk m c 4 t : Vec Ideal S4096x2 .f32) = (V m c main_arg4 : S4096x2.Idx → EReal) := by
  obtain ⟨-, -, -, -, -, -, -, -, e0, e1, -⟩ := block_indices t
  funext x
  unfold iblk
  rw [View.read_apply]
  show V m c main_arg4 _ = V m c main_arg4 _
  refine congrArg (V m c main_arg4) (funext fun d => Fin.ext ?_)
  match d with
  | ⟨0, _⟩ => show win0_4.index t (0 : Fin 2) * 4096 + 1 * (x 0).val = (x 0).val; rw [e0]; omega
  | ⟨1, _⟩ => show win0_4.index t (1 : Fin 2) * 2 + 1 * (x 1).val = (x 1).val; rw [e1]; omega

/-! ## What a point writes back -/

/-- The specified output of the argument arrays as the region finds them. -/
abbrev spec (c : Dev nD) : S65536x1.Idx → EReal :=
  G (V m c main_arg0) (V m c main_arg1) (V m c main_arg2) (V m c main_arg3) (V m c main_arg4)

/-- The stored value of point `t`'s blocks, at row `r`, is the specified output at row `256·t + r`. -/
theorem stored_at_point (c : Dev nD) (t : Fin cfg0.N) (j : S256x1.Idx) (i : S65536x1.Idx)
    (hi : (i 0).val = t.val * 256 + (j 0).val) :
    k0_pay1 (F := Ideal) (iblk m c 0 t) (iblk m c 2 t) (iblk m c 1 t) (iblk m c 4 t) (iblk m c 3 t) j = spec m c i := by
  obtain ⟨r, u, rfl⟩ : ∃ (r : Fin 256) (u : Fin 1), j = ix2 r u := ⟨j 0, j 1, eq_ix2 j⟩
  refine (Kernel.stored_apply _ _ _ _ _ r u).trans ?_
  show _ = response (fun k => V m c main_arg0 (ix2 (i 0) k)) (fun a => V m c main_arg3 (ix2 (i 0) a))
    (V m c main_arg1) (V m c main_arg2) (V m c main_arg4)
  rw [betaBlock_eq, alphaBlock_eq, centreBlock_eq]
  have hd : (fun k => (iblk m c 0 t : Vec Ideal S256x4096 .f32) (ix2 r k)) = fun k => V m c main_arg0 (ix2 (i 0) k) :=
    funext fun k => denseBlock_apply m c t r k (i 0) hi
  have hp : (fun a => (iblk m c 1 t : Vec Ideal S256x2 .f32) (ix2 r a)) = fun a => V m c main_arg3 (ix2 (i 0) a) :=
    funext fun a => pixelBlock_apply m c t r a (i 0) hi
  rw [hd, hp]

/-- What point `t` writes back is block `t` of the specified output. -/
theorem flushed_eq (c : Dev nD) (t : Fin cfg0.N) :
    (dats m 0 c).flushed 5 t = ((cfg0.win 5).blk t).view.read (Elt Ideal) (spec m c) := by
  rw [flushed5]
  unfold out0_5
  rw [View.canon_unit_zero zero_offsets]
  simp only [View.ld_unit_zero (S := S256x4096) zero_offsets, View.ld_unit_zero (S := S4096x2) zero_offsets,
    View.ld_unit_zero (S := S256x2) zero_offsets, View.ld_unit_zero (S := S4096x1) zero_offsets]
  obtain ⟨-, -, -, -, -, -, -, -, -, -, e0, e1⟩ := block_indices t
  funext j
  show k0_pay1 (F := Ideal) (iblk m c 0 t) (iblk m c 2 t) (iblk m c 1 t) (iblk m c 4 t) (iblk m c 3 t) j
    = spec m c (((cfg0.win 5).blk t).view.emb j)
  refine stored_at_point m c t j _ ?_
  show win0_5.index t (0 : Fin 2) * 256 + 1 * (j 0).val = t.val * 256 + (j 0).val
  rw [e0]; omega

/-! ## The cover, and the array after the run -/

/-- An index of the output is in point `t`'s block iff each coordinate is in the block's range on its axis. -/
theorem mem_block (t : Fin cfg0.N) (i : S65536x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v0).slice (win0_5.rect t)).set ↔ _
  rw [View.set_slice_whole, Rect.mem_set_unit]
  exact Iff.rfl

/-- Output row `i` lies in the block of point `i / 256`. -/
theorem covered (i : S65536x1.Idx) :
    ∃ t : Fin cfg0.N, (cfg0.win 5).flush t = true ∧ i ∈ ((cfg0.win 5).blk t).view.set := by
  have h0 : (i 0).val < 65536 := (i 0).isLt
  have h1 : (i 1).val < 1 := (i 1).isLt
  have hN : cfg0.N = 256 := N_0
  let t : Fin cfg0.N := ⟨(i 0).val / 256, by rw [hN]; omega⟩
  obtain ⟨-, -, -, -, -, -, -, -, -, -, e0, e1⟩ := block_indices t
  have ht : t.val = (i 0).val / 256 := rfl
  refine ⟨t, flush0_5 t, ?_⟩
  rw [mem_block]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 1 ≤ (i 1).val ∧ (i 1).val < win0_5.index t (1 : Fin 2) * 1 + 1
    rw [e1]; omega

/-- After the run the output array holds the specified output. -/
theorem final (c : Dev nD) : (dats m 0 c).arrAt 5 cfg0.N = spec m c :=
  (dats m 0 c).arrAt_eq_of_cover 5 (spec m c) (fun t _ => flushed_eq m c t) covered

/-- The kernel's run: the result array at the specified output of the arguments, the arguments unchanged. -/
theorem run : θ_run defs (onTc (τ := τ) (main (F := Ideal))) ⟨m, fun _ => 0, ρ⟩ fun r => ∀ c : Dev nD,
      r.2.mem ((c : Thread nD τ).loc main_v0)
        = G (m ((c : Thread nD τ).loc main_arg0)) (m ((c : Thread nD τ).loc main_arg1))
            (m ((c : Thread nD τ).loc main_arg2)) (m ((c : Thread nD τ).loc main_arg3))
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Rbf.Array

end
-- ==== Proof.lean ====
/-
  A Gaussian-kernel sum over 4096 centres, for each of 65536 pixels: the tiled kernel against the plain array program.

  For pixel `r` with dense-matrix row `κ` and coordinates `p`, tables `β`, `α` and centres `c`:
      d = p − κ·β,   Dₖ = ‖d‖² + ‖cₖ‖² − 2⟨d, cₖ⟩,   out r = ∑ₖ exp(−Dₖ/8) · αₖ.
  The tiled kernel walks 256 grid points of 256 pixels each, with the tables resident; the array program computes the
  same chain over whole arrays. On the extended reals, with every operation exact and a change of float format the
  identity, the two differ only in spelling: the kernel negates by subtracting from zero and multiplies by the word of
  ⅛ where the array program negates and divides by the word of 8 (equal for every extended real), it contracts
  the centres along their second axis where the array program transposes them first, and it sums in tiles. No step
  needs the inputs to be finite, so the precondition is never opened.

  The pieces: the specification, one output entry from one pixel (Proof/RbfSpec.lean); the array program's
  result is the specification at every row (Proof/RbfReference.lean); what a grid point stores, row by row, is the
  specification of that row (Proof/RbfBlock.lean); the 256 blocks written back tile the output, which therefore
  ends as the specification (Proof/RbfArray.lean). Here the two runs are set side by side.

  The three frame claims: both printed kernels run to the end with their arguments unchanged (the generated frame
  proofs), and so does the array program (its generated run, the result dropped). The idealized kernel is the printed
  kernel's own text read on the extended reals — no operation was rewritten — so that claim is empty.
-/
import proofs.«123705_j1073741824066_1_alg».proof.Defs
import proofs.«123705_j1073741824066_1_alg».proof.Proof.Gen.Kernel
import proofs.«123705_j1073741824066_1_alg».proof.Proof.Gen.Kernel.Skeleton
import proofs.«123705_j1073741824066_1_alg».proof.Proof.Gen.Kernel.Launch
import proofs.«123705_j1073741824066_1_alg».proof.Proof.Gen.Kernel.Points
import proofs.«123705_j1073741824066_1_alg».proof.Proof.Gen.Kernel.Frame
import proofs.«123705_j1073741824066_1_alg».proof.Proof.Gen.KernelIdeal
import proofs.«123705_j1073741824066_1_alg».proof.Proof.Gen.KernelIdeal.Skeleton
import proofs.«123705_j1073741824066_1_alg».proof.Proof.Gen.KernelIdeal.Launch
import proofs.«123705_j1073741824066_1_alg».proof.Proof.Gen.KernelIdeal.Points
import proofs.«123705_j1073741824066_1_alg».proof.Proof.Gen.KernelIdeal.Frame
import proofs.«123705_j1073741824066_1_alg».proof.Proof.Gen.ReferenceIdeal
import proofs.«123705_j1073741824066_1_alg».proof.Proof.Gen.KernelIdeal.Value
import proofs.«123705_j1073741824066_1_alg».proof.Proof.Gen.ReferenceIdeal.Run
import proofs.«123705_j1073741824066_1_alg».proof.Proof.Gen.ReferenceIdeal.Read
import proofs.«123705_j1073741824066_1_alg».proof.Proof.Gen.Pre_finite_inputs
import Idealize.ShloMosaic.Adequacy
import Idealize.ShloMosaic.Init
import proofs.«123705_j1073741824066_1_alg».proof.Proof.RbfReference
import proofs.«123705_j1073741824066_1_alg».proof.Proof.RbfArray

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, the tiled kernel's output array and the array program's result are
    both the specified output of those arguments. -/
theorem algebraic : Cert.algebraic_KernelIdeal_ReferenceIdeal := by
  intro m ρ m' ρ' _ hagree
  refine ⟨_, Cert.Rbf.Array.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  refine (Cert.ReferenceIdeal.Read.val_main_v21_eq _ _ _ _ _).trans
    ((Cert.Rbf.Reference.result_eq _ _ _ _ _).trans ?_)
  rw [a0, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
